-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S8192x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432x1 : Shape := ⟨2, ![33554432, 1]⟩
abbrev S_ : Shape := ⟨0, ![]⟩

class Facts : Prop where
  bcast_S_S33554432x1 : S_.BroadcastsInDim S33554432x1 (![] : Fin 0 → Fin S33554432x1.rank)
  reducesTo_S33554432x1_S_d0_1 : S33554432x1.ReducesTo [0, 1] S_
  h_S_ : 0 < S_.numel

variable [Facts]

def fn {F : FTy → Type} [FloatOps F] (main_arg0 : FVec F S33554432x1 .f32) (main_arg1 : FVec F S33554432x1 .f32) : IVec S_ 1 :=
  let main_v0 : FVec F S33554432x1 .f32 := Host.absf main_arg0
  let main_cst : FVec F S_ .f32 := constant S_ .f32 0x7F800000#32
  let main_v1 : FVec F S33554432x1 .f32 := broadcastInDim S33554432x1 ![] bcast_S_S33554432x1 main_cst
  let main_v2 : IVec S33554432x1 1 := cmpf .olt main_v0 main_v1
  let main_c : IVec S_ 1 := constantI S_ 1 1#1
  let main_v3 : IVec S_ 1 := (fun x v => Host.reduce IntOp.andi x v reducesTo_S33554432x1_S_d0_1 h_S_) main_v2 main_c
  let main_v4 : FVec F S33554432x1 .f32 := Host.absf main_arg1
  let main_cst_0 : FVec F S_ .f32 := constant S_ .f32 0x7F800000#32
  let main_v5 : FVec F S33554432x1 .f32 := broadcastInDim S33554432x1 ![] bcast_S_S33554432x1 main_cst_0
  let main_v6 : IVec S33554432x1 1 := cmpf .olt main_v4 main_v5
  let main_c_1 : IVec S_ 1 := constantI S_ 1 1#1
  let main_v7 : IVec S_ 1 := (fun x v => Host.reduce IntOp.andi x v reducesTo_S33554432x1_S_d0_1 h_S_) main_v6 main_c_1
  let main_v8 : IVec S_ 1 := andi main_v3 main_v7
  main_v8
-- ==== Kernel.lean ====
abbrev S33554432x1 : Shape := ⟨2, ![33554432, 1]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S262144x128, .f32⟩
  | .hbm, ⟨3, _⟩ => ⟨S262144x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S33554432x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_17 : BitVec 32 := 0#32
  let v49 : BitVec 1 := Scalar.cmpi .ne v48 c0_i32_17
  v49

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432x1_S262144x128 : S33554432x1.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432x1 : Shape := ⟨2, ![33554432, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S_, .f32⟩
  | .hbm, ⟨3, _⟩ => ⟨S33554432x1, .f32⟩
  | .hbm, ⟨4, _⟩ => ⟨S33554432x1, .f32⟩
  | .hbm, ⟨5, _⟩ => ⟨S_, .f32⟩
  | .hbm, ⟨6, _⟩ => ⟨S33554432x1, .f32⟩
  | .hbm, ⟨7, _⟩ => ⟨S33554432x1, .f32⟩
  | .hbm, ⟨8, _⟩ => ⟨S_, .f32⟩
  | .hbm, ⟨9, _⟩ => ⟨S33554432x1, .f32⟩
  | .hbm, ⟨10, _⟩ => ⟨S33554432x1, .f32⟩
  | .hbm, ⟨11, _⟩ => ⟨S_, .f32⟩
  | .hbm, ⟨12, _⟩ => ⟨S33554432x1, .f32⟩
  | .hbm, ⟨13, _⟩ => ⟨S33554432x1, .f32⟩
  | .hbm, ⟨14, _⟩ => ⟨S_, .f32⟩
  | .hbm, ⟨15, _⟩ => ⟨S33554432x1, .f32⟩
  | .hbm, ⟨16, _⟩ => ⟨S33554432x1, .f32⟩
  | .hbm, ⟨17, _⟩ => ⟨S_, .f32⟩
  | .hbm, ⟨18, _⟩ => ⟨S33554432x1, .f32⟩
  | .hbm, ⟨19, _⟩ => ⟨S33554432x1, .f32⟩
  | .hbm, ⟨20, _⟩ => ⟨S_, .f32⟩
  | .hbm, ⟨21, _⟩ => ⟨S33554432x1, .f32⟩
  | .hbm, ⟨22, _⟩ => ⟨S33554432x1, .f32⟩
  | .hbm, ⟨23, _⟩ => ⟨S_, .f32⟩
  | .hbm, ⟨24, _⟩ => ⟨S33554432x1, .f32⟩
  | .hbm, ⟨25, _⟩ => ⟨S33554432x1, .i1⟩
  | .hbm, ⟨26, _⟩ => ⟨S33554432x1, .f32⟩
  | .hbm, ⟨27, _⟩ => ⟨S33554432x1, .f32⟩
  | .hbm, ⟨28, _⟩ => ⟨S33554432x1, .f32⟩
  | .hbm, ⟨29, _⟩ => ⟨S33554432x1, .f32⟩
  | .hbm, ⟨30, _⟩ => ⟨S33554432x1, .f32⟩
  | .hbm, ⟨31, _⟩ => ⟨S33554432x1, .f32⟩
  | .hbm, ⟨32, _⟩ => ⟨S33554432x1, .f32⟩
  | .hbm, ⟨33, _⟩ => ⟨S33554432x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S33554432x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S33554432x1 : S_.BroadcastsInDim S33554432x1 (![] : Fin 0 → Fin S33554432x1.rank)
  reducesTo_S33554432x1_S_d0_1 : S33554432x1.ReducesTo [0, 1] S_
  h_S_ : 0 < S_.numel

variable [Facts₀]

class Facts : Prop extends Facts₀ where

variable [Facts]
-- ==== Proof.LossSpec.lean ====
/-
  The mathematics shared by both programs.

  One prediction `p` against one target `t` costs `|p - t| · exp (sign (t - p) · λ(t))`, where the weight
  `λ` is a ramp in the target: `(1 - (t - 0)/½)·(-1)` up to the median `½`, and `((t - ½)/½)·1` above it.
  The result of either program is the mean of that cost over the 2^25 pairs: the sum of all costs (from the
  initial value `0`) divided by `2^25`.

  The two programs walk the pairs in different orders.  The flat position `n` of a pair, read as row `n / 128`
  and lane `n % 128` of a 262144 × 128 matrix, lies in one of 32 bands of 8192 rows; inside a band the rows
  come in 1024 groups of 8.  One program sums the flat positions in order; the other keeps, for each half of
  the matrix (16 bands), an 8 × 128 table whose entry (s, l) collects the rows congruent to `s` modulo 8 of
  lane `l`, and then sums the 2 × 8 × 128 entries.  The index functions below name that decomposition.
-/
import Idealize.ShloMosaic.PureOps.Ideal
import Idealize.ShloMosaic.PureOps.Ideal.Laws
import Idealize.ShloMosaic.Lib.ValueIdx

noncomputable section

namespace Cert.LossSpec

open Idealize.ShloMosaic

/-- The four float constants of the formula: `0`, `½`, `1`, `-1`. -/
abbrev zeroC : EReal := Ideal.ofBits .f32 0x00000000#32
abbrev halfC : EReal := Ideal.ofBits .f32 0x3F000000#32
abbrev oneC : EReal := Ideal.ofBits .f32 0x3F800000#32
abbrev negOneC : EReal := Ideal.ofBits .f32 0xBF800000#32

/-- The weight of a target: a ramp from `-1` at `0` through `0` at the median `½` to `1` at `1`. -/
def ramp (t : EReal) : EReal :=
  Scalar.select (Ideal.cmp .ole t halfC) ((oneC - Ideal.div (t - zeroC) halfC) * negOneC)
    (Ideal.div (t - halfC) halfC * oneC)

/-- The cost of the prediction `p` against the target `t`: the absolute error, skewed by the exponential of the
    signed weight. -/
def lossAt (p t : EReal) : EReal :=
  max (p - t) (-(p - t)) * Ideal.exp (Ideal.sign (t - p) * ramp t)

/-- Row `8 g + s` of a band of 8192 rows: sublane `s` of group `g`. -/
def sub (g : Fin 1024) (s : Fin 8) : Fin 8192 := ⟨8 * g.val + s.val, by omega⟩

/-- Row `a` of band `q` of the 262144-row matrix. -/
def bandRow (q : Fin 32) (a : Fin 8192) : Fin 262144 := ⟨8192 * q.val + a.val, by omega⟩

/-- Lane `l` of row `R`, as a flat position. -/
def flat (R : Fin 262144) (l : Fin 128) : Fin 33554432 := ⟨128 * R.val + l.val, by omega⟩

/-- Band `i` of half `r / 8`: table row `r` of the 16 × 128 array of partial sums belongs to half `r / 8`. -/
def band (r : Fin 16) (i : Fin 16) : Fin 32 := ⟨16 * (r.val / 8) + i.val, by omega⟩

/-- The sublane a table row collects: `r % 8`. -/
def lane8 (r : Fin 16) : Fin 8 := ⟨r.val % 8, by omega⟩

/-- The flat position of the pair that entry (r, l) of the table of partial sums receives from band `i` of its
    half and group `g` of that band. -/
def pos (r : Fin 16) (l : Fin 128) (i : Fin 16) (g : Fin 1024) : Fin 33554432 :=
  flat (bandRow (band r i) (sub g (lane8 r))) l

end Cert.LossSpec

end
-- ==== Proof.MeanSpec.lean ====
/-
  The common result of both programs, as one function of the two flat argument arrays: the costs of all 2^25
  pairs summed from the initial value `0`, divided by the float `2^25`.
-/
import proofs.«182057_j40544491274688_2_alg».proof.Proof.LossSpec

noncomputable section

namespace Cert.LossSpec

open Idealize.ShloMosaic

/-- The divisor: the float whose word is `0x4C000000`, that is `2^25`. -/
abbrev countC : EReal := Ideal.ofBits .f32 0x4C000000#32

/-- The mean cost of the predictions `P` against the targets `T`, position by position. -/
def meanLoss (P T : Fin 33554432 → EReal) : EReal :=
  Ideal.div (zeroC + ∑ n : Fin 33554432, lossAt (P n) (T n)) countC

end Cert.LossSpec

end
-- ==== Proof.RefValue.lean ====
/-
  The reference program computes the mean cost.

  Its operations are all pointwise on the flat arrays until the last two: the ramp of the target (a select
  between the two affine pieces), the absolute error, the sign of the error, the exponential, their product —
  at each position exactly `lossAt` of the two arguments' entries there —, then one sum over every position
  from `0`, and one division by `2^25`.
-/
import proofs.«182057_j40544491274688_2_alg».proof.Proof.MeanSpec
import proofs.«182057_j40544491274688_2_alg».proof.Proof.Gen.ReferenceIdeal.Read

noncomputable section

open Idealize.ShloMosaic Idealize.ShloMosaic.ValueIdx
open Cert.LossSpec

namespace Cert.ReferenceIdeal.RefValue

open Cert.ReferenceIdeal Cert.ReferenceIdeal.Read

/-- The weight stage at one position is the ramp of the target there. -/
theorem ramp_apply (x1 : (⟨S33554432x1, .f32⟩ : BufTy).Contents (Elt Ideal)) (i : S33554432x1.Idx) :
    val_main_v16 (F := Ideal) x1 i = ramp (x1 i) := by
  simp only [val_main_v16_apply, val_main_v15_apply, val_main_v14_apply, val_main_cst_6_apply, val_main_v7_apply,
    val_main_v5_apply, val_main_v4_apply, val_main_cst_1_apply, val_main_v3_apply, val_main_v1_apply,
    val_main_v0_apply, val_main_cst_apply, val_main_v2_apply, val_main_cst_0_apply, val_main_v6_apply,
    val_main_cst_2_apply, val_main_v13_apply, val_main_v11_apply, val_main_v9_apply, val_main_v8_apply,
    val_main_cst_3_apply, val_main_v10_apply, val_main_cst_4_apply, val_main_v12_apply, val_main_cst_5_apply]
  rfl

/-- The last pointwise stage at one position is the cost of the pair there. -/
theorem cost_apply (x0 x1 : (⟨S33554432x1, .f32⟩ : BufTy).Contents (Elt Ideal)) (i : S33554432x1.Idx) :
    val_main_v23 (F := Ideal) x0 x1 i = lossAt (x0 i) (x1 i) := by
  simp only [val_main_v23_apply, val_main_v18_apply, val_main_v17_apply, val_main_v22_apply, val_main_v21_apply,
    val_main_v20_apply, val_main_v19_apply, ramp_apply]
  rfl

/-- The reference's result is the mean cost of its two arguments. -/
theorem result_eq (x0 x1 : (⟨S33554432x1, .f32⟩ : BufTy).Contents (Elt Ideal)) (i : S_.Idx) :
    val_main_v25 (F := Ideal) x0 x1 i
      = meanLoss (fun n => x0 (ix2 n (0 : Fin 1))) (fun n => x1 (ix2 n (0 : Fin 1))) := by
  rw [val_main_v25_apply, val_main_v24_apply, val_main_cst_8_apply, val_main_cst_7_apply, sum_idx2]
  simp only [cost_apply, Fin.sum_univ_one]
  rfl

end Cert.ReferenceIdeal.RefValue

end
-- ==== Proof.Pieces.lean ====
/-
  What one run of the kernel body leaves behind, as values.

  The body keeps an 8 × 128 table of partial sums in a scratch buffer that survives from one grid point to the
  next.  At every point it adds to the table the point's contribution `k0_pay3` (a function of the two input
  blocks).  At the first point of each half of the grid it first resets the table to zero, so that point leaves
  `0 + contribution`; at every other point it leaves `table + contribution`.  At the last point of each half it
  also copies the table, as just updated, into the output block.
-/
import proofs.«182057_j40544491274688_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The zero table the reset stores. -/
abbrev zero : Vec F S8x128 .f32 := broadcast S8x128 (Scalar.ofBits .f32 0x00000000#32)

/-- A middle point of a half leaves in the table what it found there plus the point's contribution. -/
theorem table_B (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec F S8192x128 .f32) (xs0 : Vec F S8x128 .f32) :
    sout0_B_0 c i a2 h2 a3 h3 a4 h4 a5 h5 hc0 hc1 x0 x1 xs0 = addf xs0 (k0_pay3 x0 x1) := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  unfold k0_pay1
  simp only [View.readAt_eq_ld, h2.read_unread, h3.read_unread, h5.read_unread, View.ld_unit_zero (S := S8x128) hz,
    View.ld_unit_zero (S := S8192x128) hz, shapeCast_self]

/-- The last point of a half does the same to the table … -/
theorem table_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    sout0_C_0 c i a2 h2 a3 h3 a4 h4 a5 h5 hc0 hc1 x0 x1 xs0 = addf xs0 (k0_pay3 x0 x1) := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  unfold k0_pay1
  simp only [View.readAt_eq_ld, h2.read_unread, h3.read_unread, h5.read_unread, View.ld_unit_zero (S := S8x128) hz,
    View.ld_unit_zero (S := S8192x128) hz, shapeCast_self]

/-- … and leaves the updated table in the output block as well. -/
theorem out_C (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec F S8192x128 .f32) (xs0 : Vec F S8x128 .f32) :
    out0_C_2 c i a2 h2 a3 h3 a4 h4 a5 h5 hc0 hc1 x0 x1 xs0 = addf xs0 (k0_pay3 x0 x1) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S8x128) _ hz]
  unfold k0_pay1
  simp only [View.readAt_eq_ld, h2.read_unread, h3.read_unread, h5.read_unread, View.ld_unit_zero (S := S8x128) hz,
    View.ld_unit_zero (S := S8192x128) hz, shapeCast_self]

/-- The first point of a half resets the table, so it leaves zero plus the point's contribution. -/
theorem table_A (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = addf zero (k0_pay3 x0 x1) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  unfold k0_pay2 k0_pay1
  simp only [View.readAt_eq_ld, h2.read_unread, h3.read_unread, View.ld_unit_zero (S := S8x128) hz,
    View.ld_unit_zero (S := S8192x128) hz, shapeCast_self]

end Cert.KernelIdeal.Pieces

end
-- ==== Proof.Payload.lean ====
import proofs.«182057_j40544491274688_2_alg».proof.Proof.LossSpec
import proofs.«182057_j40544491274688_2_alg».proof.Proof.Gen.KernelIdeal.Skeleton
import Idealize.ShloMosaic.Lib.Pipeline.Value
import Idealize.ShloMosaic.Lib.ValueLayout

noncomputable section

open Idealize.ShloMosaic Idealize.ShloMosaic.ValueIdx
open Cert.LossSpec

namespace Cert.KernelIdeal.Payload

open Cert.KernelIdeal Cert.KernelIdeal.Gen

/-- The chain of scalar operations the body applies to one prediction `p` and one target `t`: the absolute error
    `|p - t|` times the exponential of (the sign of `t - p`, written as the selection `|t - p| > 0 ? (t - p < 0 ? -1 : 1)
    : t - p`) times the ramp weight of `t`. The selection is `Ideal.sign (t - p)` at every extended real, so the chain
    is the cost `lossAt p t`. -/
theorem cell_eq (p t : Ideal .f32) :
    FloatOps.mulf (FloatOps.absf (FloatOps.subf p t))
      (FloatOps.exp (FloatOps.mulf
        (Scalar.select (FloatOps.cmpf .ogt (FloatOps.absf (FloatOps.subf t p)) (Scalar.ofBits .f32 0x00000000#32))
          (Scalar.select (FloatOps.cmpf .olt (FloatOps.subf t p) (Scalar.ofBits .f32 0x00000000#32))
            (Scalar.ofBits .f32 0xBF800000#32) (Scalar.ofBits .f32 0x3F800000#32)) (FloatOps.subf t p))
        (ramp t))) = lossAt p t := by
  rw [Ideal.jnp_sign_eq_sign_f32]
  rfl

/-- Entry (s, l) of the 8 × 128 result is the sum over the 1024 groups `g` of the cost at row `8 g + s`, lane `l` of
    the two 8192 × 128 blocks: the reduction over the leading axis of the 1024 × 8 × 128 reshape is a sum over `g` of
    the reshape at (g, s, l); the reshape at (g, s, l) is the 8192 × 128 array at (8 g + s, l), the same row-major
    position `((8 g + s) · 128 + l = (g · 8 + s) · 128 + l)`; and every operation before the reshape is pointwise. -/
theorem pay3_apply (x0 x1 : Vec Ideal S8192x128 .f32) (s : Fin 8) (l : Fin 128) :
    k0_pay3 (F := Ideal) x0 x1 (ix2 s l)
      = ∑ g : Fin 1024, lossAt (x0 (ix2 (sub g s) l)) (x1 (ix2 (sub g s) l)) := by
  unfold k0_pay3
  refine (Ideal.multiReduction_add_single _ 0x00000000#32 reduces_S1024x8x128_S8x128 (.inl rfl) rfl (ix2 s l)).trans ?_
  refine Finset.sum_congr rfl fun g _ => ?_
  refine (shapeCast_apply _ shapeCasts_S8192x128_S1024x8x128 _ (ix2 (sub g s) l) ?_).trans ?_
  · rw [Shape.rowMajor_val_two, Shape.rowMajor_val_three]
    show (8 * g.val + s.val) * 128 + l.val = (g.val * 8 + s.val) * 128 + l.val
    omega
  · rw [shapeCast_self, shapeCast_self]
    exact cell_eq (x0 (ix2 (sub g s) l)) (x1 (ix2 (sub g s) l))

end Cert.KernelIdeal.Payload

end
-- ==== Proof.EntryArrays.lean ====
import proofs.«182057_j40544491274688_2_alg».proof.Proof.LossSpec
import proofs.«182057_j40544491274688_2_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Cert.LossSpec

namespace Cert.KernelIdeal.Entry

open Cert.KernelIdeal Cert.KernelIdeal.Gen

variable (m : (ℓ : Loc nD τ sig) → Buf (Elt Ideal) ℓ)

/-- The index maps of the two input windows, decided once over the 32 grid points: point t fetches block (t, 0). -/
theorem index0_facts : ∀ t : Fin cfg0.N, win0_0.index t 0 = t.val ∧ win0_0.index t 1 = 0 :=
  (by decide +kernel : ∀ t : Fin grid0.N, _)

theorem index1_facts : ∀ t : Fin cfg0.N, win0_1.index t 0 = t.val ∧ win0_1.index t 1 = 0 :=
  (by decide +kernel : ∀ t : Fin grid0.N, _)

/-- The matrix of predictions as the kernel's launch finds it is the flat argument re-laid: row R, lane l is position 128 R + l. -/
theorem V_main_v0_apply (c : Dev nD) (R : Fin 262144) (l : Fin 128) :
    (V m c main_v0 : S262144x128.Idx → EReal) (ix2 R l) = (m ((c : Thread nD τ).loc main_arg0) : S33554432x1.Idx → EReal) (ix2 (flat R l) (0 : Fin 1)) := by
  have e : (V m c main_v0 : S262144x128.Idx → EReal)
      = shapeCast S262144x128 (m ((c : Thread nD τ).loc main_arg0)) shapeCasts_S33554432x1_S262144x128 := by
    show StableHlo.after hostOps0 (fun b => m (c, b)) (Proc.devRef .tc main_v0) = _
    after_results
    rfl
  rw [e]
  refine shapeCast_apply _ _ _ _ ?_
  show ((⟨2, ![33554432, 1]⟩ : Shape).rowMajor (ix2 (flat R l) (0 : Fin 1))).val
    = ((⟨2, ![262144, 128]⟩ : Shape).rowMajor (ix2 R l)).val
  rw [Shape.rowMajor_val_two, Shape.rowMajor_val_two]
  show (128 * R.val + l.val) * 1 + 0 = R.val * 128 + l.val
  omega

theorem V_main_v1_apply (c : Dev nD) (R : Fin 262144) (l : Fin 128) :
    (V m c main_v1 : S262144x128.Idx → EReal) (ix2 R l) = (m ((c : Thread nD τ).loc main_arg1) : S33554432x1.Idx → EReal) (ix2 (flat R l) (0 : Fin 1)) := by
  have e : (V m c main_v1 : S262144x128.Idx → EReal)
      = shapeCast S262144x128 (m ((c : Thread nD τ).loc main_arg1)) shapeCasts_S33554432x1_S262144x128 := by
    show StableHlo.after hostOps0 (fun b => m (c, b)) (Proc.devRef .tc main_v1) = _
    after_results
    rfl
  rw [e]
  refine shapeCast_apply _ _ _ _ ?_
  show ((⟨2, ![33554432, 1]⟩ : Shape).rowMajor (ix2 (flat R l) (0 : Fin 1))).val
    = ((⟨2, ![262144, 128]⟩ : Shape).rowMajor (ix2 R l)).val
  rw [Shape.rowMajor_val_two, Shape.rowMajor_val_two]
  show (128 * R.val + l.val) * 1 + 0 = R.val * 128 + l.val
  omega

/-- Grid point t reads band t of each matrix: rows 8192 t … 8192 t + 8191. -/
theorem iblk0_apply (c : Dev nD) (t : Fin cfg0.N) (a : Fin 8192) (l : Fin 128) :
    (iblk m c 0 t : S8192x128.Idx → EReal) (ix2 a l) = (V m c main_v0 : S262144x128.Idx → EReal) (ix2 (bandRow ⟨t.val, lt_of_lt_of_eq t.isLt N_0⟩ a) l) := by
  have hi := index0_facts t
  unfold iblk
  rw [View.read_apply]
  show V m c main_v0 _ = V m c main_v0 _
  congr 1
  funext x
  apply Fin.ext
  match x with
  | ⟨0, _⟩ => show win0_0.index t 0 * 8192 + 1 * a.val = 8192 * t.val + a.val; rw [hi.1]; omega
  | ⟨1, _⟩ => show win0_0.index t 1 * 128 + 1 * l.val = l.val; rw [hi.2]; omega

theorem iblk1_apply (c : Dev nD) (t : Fin cfg0.N) (a : Fin 8192) (l : Fin 128) :
    (iblk m c 1 t : S8192x128.Idx → EReal) (ix2 a l) = (V m c main_v1 : S262144x128.Idx → EReal) (ix2 (bandRow ⟨t.val, lt_of_lt_of_eq t.isLt N_0⟩ a) l) := by
  have hi := index1_facts t
  unfold iblk
  rw [View.read_apply]
  show V m c main_v1 _ = V m c main_v1 _
  congr 1
  funext x
  apply Fin.ext
  match x with
  | ⟨0, _⟩ => show win0_1.index t 0 * 8192 + 1 * a.val = 8192 * t.val + a.val; rw [hi.1]; omega
  | ⟨1, _⟩ => show win0_1.index t 1 * 128 + 1 * l.val = l.val; rw [hi.2]; omega

end Cert.KernelIdeal.Entry

end
-- ==== Proof.SumRegroup.lean ====
import proofs.«182057_j40544491274688_2_alg».proof.Proof.LossSpec

noncomputable section

namespace Cert.LossSpec

/-- The flat position `pos r l i g` as a natural number. -/
theorem pos_val (r : Fin 16) (l : Fin 128) (i : Fin 16) (g : Fin 1024) :
    (pos r l i g).val =
      128 * (8192 * (16 * (r.val / 8) + i.val) + (8 * g.val + r.val % 8)) + l.val := rfl

/-- The decomposition of a flat position `n`: with row `R = n / 128`, band `q = R / 8192` and row-in-band
    `w = R % 8192`, the table row is `8 (q / 16) + w % 8`, the lane `n % 128`, the band within its half
    `q % 16` and the group `w / 8`.  It is inverse to `pos`, so `pos` is a bijection from
    `16 × 128 × 16 × 1024` index tuples onto the `2^25` flat positions. -/
def posEquiv : Fin 16 × Fin 128 × Fin 16 × Fin 1024 ≃ Fin 33554432 where
  toFun x := pos x.1 x.2.1 x.2.2.1 x.2.2.2
  invFun n :=
    (⟨8 * (n.val / 128 / 8192 / 16) + n.val / 128 % 8192 % 8, by omega⟩,
     ⟨n.val % 128, by omega⟩,
     ⟨n.val / 128 / 8192 % 16, by omega⟩,
     ⟨n.val / 128 % 8192 / 8, by omega⟩)
  left_inv := by
    rintro ⟨r, l, i, g⟩
    refine Prod.ext ?_ (Prod.ext ?_ (Prod.ext ?_ ?_)) <;> apply Fin.ext <;>
      simp only [pos_val] <;> omega
  right_inv := by
    intro n
    apply Fin.ext
    simp only [pos_val]
    omega

theorem sum_regroup (h : Fin 33554432 → EReal) :
    ∑ n : Fin 33554432, h n = ∑ r : Fin 16, ∑ l : Fin 128, ∑ i : Fin 16, ∑ g : Fin 1024, h (pos r l i g) := by
  rw [← Equiv.sum_comp posEquiv h]
  simp only [Fintype.sum_prod_type]
  rfl

end Cert.LossSpec

end
-- ==== Proof.TableSpec.lean ====
/-
  The table of partial sums and its total.

  Entry (r, l) of the 16 × 128 table collects, for half `r / 8` of the matrix, every row congruent to `r % 8`
  modulo 8 of lane `l`: 16 bands of 1024 groups.  Every flat position lies in exactly one entry, so the table's
  total is the sum over all positions, and the mean cost is the total (from `0`) divided by `2^25`.
-/
import proofs.«182057_j40544491274688_2_alg».proof.Proof.MeanSpec
import proofs.«182057_j40544491274688_2_alg».proof.Proof.SumRegroup

noncomputable section

namespace Cert.LossSpec

open Idealize.ShloMosaic Idealize.ShloMosaic.ValueIdx

/-- Entry (r, l) of the table of partial sums. -/
def outAt (P T : Fin 33554432 → EReal) (r : Fin 16) (l : Fin 128) : EReal :=
  ∑ i : Fin 16, ∑ g : Fin 1024, lossAt (P (pos r l i g)) (T (pos r l i g))

/-- The table as an array over its two coordinates. -/
def outTable (P T : Fin 33554432 → EReal) : (⟨2, ![16, 128]⟩ : Shape).Idx → EReal :=
  fun j => outAt P T ⟨(j 0).val, idx2_lt0 j⟩ ⟨(j 1).val, idx2_lt1 j⟩

theorem outTable_ix2 (P T : Fin 33554432 → EReal) (r : Fin 16) (l : Fin 128) :
    outTable P T (ix2 r l) = outAt P T r l := rfl

/-- The table's total is the sum of the costs of all pairs. -/
theorem sum_outAt (P T : Fin 33554432 → EReal) :
    ∑ r : Fin 16, ∑ l : Fin 128, outAt P T r l = ∑ n : Fin 33554432, lossAt (P n) (T n) :=
  (sum_regroup fun n => lossAt (P n) (T n)).symm

/-- So the table's total from `0`, divided by `2^25`, is the mean cost. -/
theorem mean_of_table (P T : Fin 33554432 → EReal) :
    Ideal.div (zeroC + ∑ j : (⟨2, ![16, 128]⟩ : Shape).Idx, outTable P T j) countC = meanLoss P T := by
  unfold meanLoss
  rw [sum_idx2]
  simp only [outTable_ix2]
  rw [sum_outAt]

end Cert.LossSpec

end
-- ==== Proof.Table.lean ====
/-
  The table of partial sums, point by point.

  The grid has 32 points, two halves of 16.  Point `t` reads band `t` of the two matrices and contributes, to
  entry (s, l) of an 8 × 128 table, the costs of the band's rows congruent to `s` modulo 8 in lane `l`.  The first
  point of a half starts the table from zero; every later point adds to what the point before left.  So after
  point `n` the table holds the contributions of the bands `16 (n / 16), …, n` of the current half, and after
  the last point of a half — where the table is also copied to the output block — those of all 16 bands of the
  half: rows `8 (n / 16) … 8 (n / 16) + 7` of the 16 × 128 table of partial sums.
-/
import proofs.«182057_j40544491274688_2_alg».proof.Proof.Pieces
import proofs.«182057_j40544491274688_2_alg».proof.Proof.Payload
import proofs.«182057_j40544491274688_2_alg».proof.Proof.EntryArrays
import proofs.«182057_j40544491274688_2_alg».proof.Proof.TableSpec

noncomputable section

open Idealize.ShloMosaic Idealize.ShloMosaic.TcCoe Idealize.SL.Sem Idealize.ShloMosaic.ValueIdx
open Cert.LossSpec

namespace Cert.KernelIdeal.Table

open Cert.KernelIdeal Cert.KernelIdeal.Gen Cert.KernelIdeal.Pieces

section AnyFloats

variable {F : FTy → Type} [FloatOps F]
variable (m : (ℓ : Loc nD τ sig) → Buf (Elt F) ℓ)

/-- What grid point `t` adds to the table: the body's arithmetic on the point's two input blocks. -/
def contrib (c : Dev nD) (t : Fin cfg0.N) : Vec F S8x128 .f32 :=
  k0_pay3 (iblk m c 0 t) (iblk m c 1 t)

/-- The table after point `n`: restarted from zero at the first point of each half, otherwise carried on. -/
def table (c : Dev nD) : (n : ℕ) → n < cfg0.N → Vec F S8x128 .f32
  | 0, h => addf zero (contrib m c ⟨0, h⟩)
  | n + 1, h =>
    if (n + 1) % 16 = 0 then addf zero (contrib m c ⟨n + 1, h⟩)
    else addf (table c n (Nat.lt_of_succ_lt h)) (contrib m c ⟨n + 1, h⟩)

theorem table_succ (c : Dev nD) (n : ℕ) (h : n + 1 < cfg0.N) :
    table m c (n + 1) h = if (n + 1) % 16 = 0 then addf zero (contrib m c ⟨n + 1, h⟩)
      else addf (table m c n (Nat.lt_of_succ_lt h)) (contrib m c ⟨n + 1, h⟩) := rfl

/-- What the scratch buffer holds after point `n` is the table after point `n`: by induction on the point. -/
theorem scratch_eq (c : Dev nD) : ∀ (n : ℕ) (h : n < cfg0.N), (outsAt0 m c n h).2 = table m c n h
  | 0, h => by
    rw [outsAt0_A m c ⟨0, h⟩ rfl (by show ¬(0 : ℕ) % 16 = 15; omega)]
    dsimp only
    exact table_A ..
  | n + 1, h => by
    have hN : cfg0.N = 32 := N_0
    rw [table_succ]
    by_cases h0 : (n + 1) % 16 = 0
    · have h1 : ¬(n + 1) % 16 = 15 := by omega
      rw [outsAt0_A m c ⟨n + 1, h⟩ h0 h1, if_pos h0]
      dsimp only
      exact table_A ..
    · rw [if_neg h0]
      by_cases h1 : (n + 1) % 16 = 15
      · rw [outsAt0_C m c ⟨n + 1, h⟩ h0 h1]
        dsimp only
        rw [table_C]
        show addf (outsAt0 m c n _).2 _ = addf (table m c n _) _
        rw [scratch_eq c n]
        rfl
      · rw [outsAt0_B m c ⟨n + 1, h⟩ h0 h1]
        dsimp only
        rw [table_B]
        show addf (outsAt0 m c n _).2 _ = addf (table m c n _) _
        rw [scratch_eq c n]
        rfl

/-- At the last point of a half the output block holds the table as well. -/
theorem block_eq (c : Dev nD) : ∀ (n : ℕ) (h : n < cfg0.N), n % 16 = 15 → (outsAt0 m c n h).1 = table m c n h
  | 0, h, h15 => by omega
  | n + 1, h, h15 => by
    have h0 : ¬(n + 1) % 16 = 0 := by omega
    rw [table_succ, if_neg h0, outsAt0_C m c ⟨n + 1, h⟩ h0 h15]
    dsimp only
    rw [out_C]
    show addf (outsAt0 m c n _).2 _ = addf (table m c n _) _
    rw [scratch_eq m c n]
    rfl

end AnyFloats

section Exact

variable (m : (ℓ : Loc nD τ sig) → Buf (Elt Ideal) ℓ)

/-- The two flat argument arrays, position by position. -/
def preds (c : Dev nD) : Fin 33554432 → EReal :=
  fun n => (m ((c : Thread nD τ).loc main_arg0) : S33554432x1.Idx → EReal) (ix2 n (0 : Fin 1))
def targets (c : Dev nD) : Fin 33554432 → EReal :=
  fun n => (m ((c : Thread nD τ).loc main_arg1) : S33554432x1.Idx → EReal) (ix2 n (0 : Fin 1))

/-- What band `q` gives entry (s, l): the costs of its rows `8 g + s` in lane `l` (nothing beyond the 32 bands). -/
def bandSum (P T : Fin 33554432 → EReal) (q : ℕ) (s : Fin 8) (l : Fin 128) : EReal :=
  if hq : q < 32 then
    ∑ g : Fin 1024, lossAt (P (flat (bandRow ⟨q, hq⟩ (sub g s)) l)) (T (flat (bandRow ⟨q, hq⟩ (sub g s)) l))
  else 0

/-- Point `t` contributes band `t`. -/
theorem contrib_apply (c : Dev nD) (t : Fin cfg0.N) (s : Fin 8) (l : Fin 128) :
    (contrib m c t : S8x128.Idx → EReal) (ix2 s l) = bandSum (preds m c) (targets m c) t.val s l := by
  unfold contrib bandSum
  rw [dif_pos (lt_of_lt_of_eq t.isLt N_0)]
  refine (Payload.pay3_apply (iblk m c 0 t) (iblk m c 1 t) s l).trans ?_
  refine Finset.sum_congr rfl fun g _ => ?_
  rw [Entry.iblk0_apply m c t (sub g s) l, Entry.iblk1_apply m c t (sub g s) l, Entry.V_main_v0_apply, Entry.V_main_v1_apply]
  rfl

/-- After point `n` the table holds the bands of the current half up to `n`. -/
theorem table_apply (c : Dev nD) : ∀ (n : ℕ) (h : n < cfg0.N) (s : Fin 8) (l : Fin 128),
    (table m c n h : S8x128.Idx → EReal) (ix2 s l)
      = ∑ k ∈ Finset.range (n % 16 + 1), bandSum (preds m c) (targets m c) (16 * (n / 16) + k) s l
  | 0, h, s, l => by
    show (zero (F := Ideal) (ix2 s l) : EReal) + (contrib m c ⟨0, h⟩ : S8x128.Idx → EReal) (ix2 s l) = _
    rw [contrib_apply]
    show Ideal.ofBits .f32 0x00000000#32 + _ = _
    rw [Ideal.ofBits_zero_f32, zero_add]
    simp
  | n + 1, h, s, l => by
    rw [table_succ]
    by_cases h0 : (n + 1) % 16 = 0
    · rw [if_pos h0]
      show (zero (F := Ideal) (ix2 s l) : EReal) + (contrib m c ⟨n + 1, h⟩ : S8x128.Idx → EReal) (ix2 s l) = _
      rw [contrib_apply]
      show Ideal.ofBits .f32 0x00000000#32 + _ = _
      have e3 : 16 * ((n + 1) / 16) = n + 1 := by omega
      rw [Ideal.ofBits_zero_f32, zero_add, h0, zero_add, Finset.sum_range_one, add_zero, e3]
    · rw [if_neg h0]
      show (table m c n _ : S8x128.Idx → EReal) (ix2 s l) + (contrib m c ⟨n + 1, h⟩ : S8x128.Idx → EReal) (ix2 s l) = _
      rw [table_apply c n _ s l, contrib_apply]
      have e1 : (n + 1) % 16 = n % 16 + 1 := by omega
      have e2 : (n + 1) / 16 = n / 16 := by omega
      have e3 : 16 * (n / 16) + (n % 16 + 1) = n + 1 := by omega
      rw [e1, e2, Finset.sum_range_succ _ (n % 16 + 1), e3]

/-- So the block written back at the last point `t` of a half is rows `8 (t / 16) … + 7` of the table of partial sums. -/
theorem block_apply (c : Dev nD) (t : Fin cfg0.N) (h15 : t.val % 16 = 15) (s : Fin 8) (l : Fin 128)
    (r : Fin 16) (hr : r.val = 8 * (t.val / 16) + s.val) :
    ((outsAt0 m c t.val t.isLt).1 : S8x128.Idx → EReal) (ix2 s l) = outAt (preds m c) (targets m c) r l := by
  have hN : cfg0.N = 32 := N_0
  have ht := t.isLt
  rw [block_eq m c t.val t.isLt h15, table_apply, h15, Finset.sum_range]
  unfold outAt
  refine Finset.sum_congr rfl fun i _ => ?_
  have hb : band r i = ⟨16 * (t.val / 16) + i.val, by omega⟩ := Fin.ext (by simp only [band]; omega)
  have hl : lane8 r = s := Fin.ext (by simp only [lane8]; omega)
  unfold bandSum
  rw [dif_pos (by omega)]
  refine Finset.sum_congr rfl fun g _ => ?_
  simp only [pos, hb, hl]

end Exact

end Cert.KernelIdeal.Table

end
-- ==== Proof.FinalArray.lean ====
import proofs.«182057_j40544491274688_2_alg».proof.Proof.LossSpec
import proofs.«182057_j40544491274688_2_alg».proof.Proof.Gen.KernelIdeal.Frame
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- Row s of the 8 × 128 block written back at grid point t is row 8 (t / 16) + s of the 16 × 128 array. -/
def halfRow (t : Fin cfg0.N) (s : Fin 8) : Fin 16 :=
  ⟨8 * (t.val / 16) + s.val, by have h1 := t.isLt; have h2 : cfg0.N = 32 := N_0; omega⟩

/-- The index map of the output window, decided once over the 32 grid points: point t writes block (t / 16, 0). -/
theorem index2_facts : ∀ t : Fin cfg0.N, win0_2.index t 0 = t.val / 16 ∧ win0_2.index t 1 = 0 :=
  (by decide +kernel : ∀ t : Fin grid0.N, _)

/-- An index of the 16 × 128 array lies under point t's block when each coordinate lies in the block's span:
    rows 8 (t / 16) … 8 (t / 16) + 7, all 128 lanes. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Every row r of the array lies under the block of a point that writes back: point 16 (r / 8) + 15. -/
theorem cover (i : S16x128.Idx) :
    ∃ t : Fin cfg0.N, (cfg0.win 2).flush t = true ∧ i ∈ ((cfg0.win 2).blk t).view.set := by
  have h0 : (i 0).val < 16 := (i 0).isLt
  have h1 : (i 1).val < 128 := (i 1).isLt
  obtain ⟨t, ht⟩ : ∃ t : Fin cfg0.N, t.val = 16 * ((i 0).val / 8) + 15 :=
    ⟨⟨16 * ((i 0).val / 8) + 15, lt_of_lt_of_eq (by omega) N_0.symm⟩, rfl⟩
  obtain ⟨e0, e1⟩ := index2_facts t
  refine ⟨t, (flush0_2 t).mpr (by omega), ?_⟩
  rw [mem_blk]
  intro a
  match a with
  | ⟨0, _⟩ =>
    show win0_2.index t 0 * 8 ≤ (i 0).val ∧ (i 0).val < win0_2.index t 0 * 8 + 8
    rw [e0]; omega
  | ⟨1, _⟩ =>
    show win0_2.index t 1 * 128 ≤ (i 1).val ∧ (i 1).val < win0_2.index t 1 * 128 + 128
    rw [e1]; omega

/-- What a point that writes back writes is its block of G, when the block it holds agrees with G entry by entry. -/
theorem flushed_eq (c : Dev nD) (G : S16x128.Idx → EReal)
    (hblk : ∀ t : Fin cfg0.N, t.val % 16 = 15 → ∀ (s : Fin 8) (l : Fin 128),
      ((outsAt0 m c t.val t.isLt).1 : S8x128.Idx → EReal) (ix2 s l) = G (ix2 (halfRow t s) l))
    (t : Fin cfg0.N) (hf : (cfg0.win 2).flush t = true) :
    (dats m 0 c).flushed 2 t = ((cfg0.win 2).blk t).view.read (Elt Ideal) G := by
  have h15 : t.val % 16 = 15 := (flush0_2 t).mp hf
  obtain ⟨e0, e1⟩ := index2_facts t
  show (cfg0.win 2).cut (grid0.coords t) ((dats m 0 c).after 2 t) = _
  rw [after0_2]
  funext y
  rw [View.read_apply]
  obtain ⟨s, l, rfl⟩ : ∃ (s : Fin 8) (l : Fin 128), y = ix2 s l := ⟨y 0, y 1, eq_ix2 y⟩
  show ((outsAt0 m c t.val t.isLt).1 : S8x128.Idx → EReal) (ix2 s l) = G _
  rw [hblk t h15 s l]
  congr 1
  funext a
  apply Fin.ext
  match a with
  | ⟨0, _⟩ =>
    show 8 * (t.val / 16) + s.val = win0_2.index t 0 * 8 + 1 * s.val
    rw [e0]; omega
  | ⟨1, _⟩ =>
    show l.val = win0_2.index t 1 * 128 + 1 * l.val
    rw [e1]; omega

/-- The array after the run is G: the two points that write back (15 and 31) write G's two halves, and the halves fill it. -/
theorem final_of_blocks (c : Dev nD) (G : S16x128.Idx → EReal)
    (hblk : ∀ t : Fin cfg0.N, t.val % 16 = 15 → ∀ (s : Fin 8) (l : Fin 128),
      ((outsAt0 m c t.val t.isLt).1 : S8x128.Idx → EReal) (ix2 s l) = G (ix2 (halfRow t s) l)) :
    (dats m 0 c).arrAt 2 cfg0.N = G :=
  (dats m 0 c).arrAt_eq_of_cover 2 G (flushed_eq m c G hblk) cover

end Cert.KernelIdeal.Final

end
-- ==== Proof.HostTail.lean ====
import proofs.«182057_j40544491274688_2_alg».proof.Proof.MeanSpec
import proofs.«182057_j40544491274688_2_alg».proof.Proof.Gen.KernelIdeal.Frame
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.LossSpec

namespace Cert.KernelIdeal.Tail

open Cert.KernelIdeal Cert.KernelIdeal.Gen

variable (m : (ℓ : Loc nD τ sig) → Buf (Elt Ideal) ℓ)

/-- The result's buffer after the four closing operations, given the final contents `G` of the 16 × 128 table of
    partial sums: `G` summed over both axes from the constant `0`, then divided by the constant `2^25`. Each operation
    writes its own result buffer and leaves the others as they were, and the table's buffer holds `G`. -/
theorem tail_buf (c : Dev nD) (G : S16x128.Idx → EReal)
    (hfin : (dats m 0 c).arrAt 2 cfg0.N = G) :
    (Pipeline.afterTail₀ cfgs (dats m) 0 (V0 m) [hostOps1] c main_v4 : S_.Idx → EReal)
      = Host.divf (F := Ideal) (Host.reduceAdd (F := Ideal) G (constant (F := Ideal) S_ .f32 0x00000000#32) reducesTo_S16x128_S_d0_1 h_S_) (constant (F := Ideal) S_ .f32 0x4C000000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = G :=
    (Pipeline.withArrays_arr spec0 launch0.win.arr_inj c _ _ 2).trans hfin
  rw [e]

/-- Read at its one index, the result is `(0 + ∑ G) / 2^25`: the division is pointwise, and over the extended reals a
    sum over both axes into a rank-0 array is the initial value plus the sum of every entry. -/
theorem result_of_final (c : Dev nD) (G : S16x128.Idx → EReal)
    (hfin : (dats m 0 c).arrAt 2 cfg0.N = G) (i : S_.Idx) :
    (Pipeline.afterTail₀ cfgs (dats m) 0 (V0 m) [hostOps1] c main_v4 : S_.Idx → EReal) i
      = Ideal.div (zeroC + ∑ j : S16x128.Idx, G j) countC := by
  rw [tail_buf m c G hfin]
  show Ideal.div (Host.reduceAdd (F := Ideal) G (constant (F := Ideal) S_ .f32 0x00000000#32) reducesTo_S16x128_S_d0_1 h_S_ i) countC = _
  refine congrArg (fun y => Ideal.div y countC) ?_
  simp only [Host.reduceAdd, Ideal.hostReduceAdd_def]
  exact Ideal.hostReduceAdd_total reducesTo_S16x128_S_d0_1 (fun b => b.elim0) G _ i

end Cert.KernelIdeal.Tail

end
-- ==== Proof.KernelResult.lean ====
/-
  The kernel program computes the mean cost.

  The kernel's call leaves in its 16 × 128 output array the table of partial sums (each half's block is written
  back once, after the half's last point, holding the contributions of the half's 16 bands); the host lines
  after the call sum the table from `0` and divide by `2^25`.  The table's total is the sum over all pairs, so
  the program's result is the mean cost of its two arguments, and its arguments end unchanged.
-/
import proofs.«182057_j40544491274688_2_alg».proof.Proof.Table
import proofs.«182057_j40544491274688_2_alg».proof.Proof.FinalArray
import proofs.«182057_j40544491274688_2_alg».proof.Proof.HostTail

noncomputable section

open Idealize.ShloMosaic Idealize.ShloMosaic.TcCoe Idealize.SL.Sem Idealize.ShloMosaic.ValueIdx
open Idealize.ShloMosaic.Pipeline (Dat)
open Cert.LossSpec

namespace Cert.KernelIdeal.Result

open Cert.KernelIdeal Cert.KernelIdeal.Gen Cert.KernelIdeal.Table

variable (m : (ℓ : Loc nD τ sig) → Buf (Elt Ideal) ℓ)

/-- The output array ends holding the table of partial sums of the two arguments. -/
theorem final (c : Dev nD) : (dats m 0 c).arrAt 2 cfg0.N = outTable (preds m c) (targets m c) :=
  Final.final_of_blocks m c (outTable (preds m c) (targets m c)) fun t h15 s l =>
    block_apply m c t h15 s l (Final.halfRow t s) rfl

/-- After the host lines that follow the call, the result buffer holds the mean cost. -/
theorem result (c : Dev nD) :
    Pipeline.afterTail₀ cfgs (dats m) 0 (V0 m) [hostOps1] c main_v4 = fun _ => meanLoss (preds m c) (targets m c) :=
  funext fun i => (Tail.result_of_final m c _ (final m c) i).trans (mean_of_table _ _)

/-- Every weakly fair execution of the program terminates with the result at the mean cost and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = (fun _ => meanLoss (preds m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  The mean of a skewed absolute error, computed two ways.

  For 2^25 pairs (prediction `p`, target `t`) both programs compute the mean of
  `|p - t| · exp (sign (t - p) · λ(t))`, the weight `λ` a ramp in the target around the median `½`.

  The reference applies the formula pointwise to the flat arrays, sums every position from `0` and divides by
  `2^25`.  The kernel re-lays the arrays as 262144 × 128 matrices, walks them in 32 bands of 8192 rows — two
  halves of 16 bands —, folds each band's rows eight by eight into an 8 × 128 table that it carries through a
  half, writes each half's table to one block of a 16 × 128 array, and then sums that array from `0` and divides
  by `2^25`.  Over the extended reals addition is commutative and associative without exception, so the two
  groupings of the one sum agree; the kernel spells `sign` as a selection on `|x| > 0` and `x < 0`, which is the
  sign function at every extended real; and every constant is the same float on both sides.  No finiteness of
  the inputs is used by the value argument.

  The modules: LossSpec, MeanSpec, TableSpec (the formula, the index arithmetic, the table of partial sums) and
  SumRegroup (every flat position lies in exactly one table entry); RefValue (the reference is the mean cost);
  Payload (the kernel body's arithmetic at an index), EntryArrays (the kernel's input blocks in terms of the
  arguments), Pieces (what one run of the body leaves), Table (the table after each grid point), FinalArray
  (from written-back blocks to the output array), HostTail (the host lines after the call), KernelResult (the
  kernel program is the mean cost).
-/
import proofs.«182057_j40544491274688_2_alg».proof.Defs
import proofs.«182057_j40544491274688_2_alg».proof.Proof.Gen.Kernel
import proofs.«182057_j40544491274688_2_alg».proof.Proof.Gen.Kernel.Skeleton
import proofs.«182057_j40544491274688_2_alg».proof.Proof.Gen.Kernel.Launch
import proofs.«182057_j40544491274688_2_alg».proof.Proof.Gen.Kernel.Points
import proofs.«182057_j40544491274688_2_alg».proof.Proof.Gen.Kernel.Frame
import proofs.«182057_j40544491274688_2_alg».proof.Proof.Gen.KernelIdeal
import proofs.«182057_j40544491274688_2_alg».proof.Proof.Gen.KernelIdeal.Skeleton
import proofs.«182057_j40544491274688_2_alg».proof.Proof.Gen.KernelIdeal.Launch
import proofs.«182057_j40544491274688_2_alg».proof.Proof.Gen.KernelIdeal.Points
import proofs.«182057_j40544491274688_2_alg».proof.Proof.Gen.KernelIdeal.Frame
import proofs.«182057_j40544491274688_2_alg».proof.Proof.Gen.ReferenceIdeal
import proofs.«182057_j40544491274688_2_alg».proof.Proof.Gen.ReferenceIdeal.Run
import proofs.«182057_j40544491274688_2_alg».proof.Proof.Gen.ReferenceIdeal.Read
import proofs.«182057_j40544491274688_2_alg».proof.Proof.Gen.Pre_finite_inputs
import proofs.«182057_j40544491274688_2_alg».proof.Proof.RefValue
import proofs.«182057_j40544491274688_2_alg».proof.Proof.KernelResult
import Idealize.ShloMosaic.Adequacy
import Idealize.ShloMosaic.Init

noncomputable section

namespace Cert.Proof

open Idealize.ShloMosaic Idealize.ShloMosaic.TcCoe Idealize.SL.Sem Idealize.ShloMosaic.ValueIdx
open Cert.LossSpec

/-- The word-level kernel runs and keeps its arguments. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a straight line of host operations: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- The one rewrite of the idealization: the word `1.0` carrying another float's sign bit is `-1` or `1` by that
    float's sign. -/
theorem preserves : Cert.preserves_Kernel_KernelIdeal :=
  IdealRules.sign_bit.statement Cert.KernelIdeal.S8192x128 .f32

/-- Both programs end at the mean cost of arguments that agree. -/
theorem algebraic : Cert.algebraic_KernelIdeal_ReferenceIdeal := by
  intro m ρ m' ρ' _ hagree
  refine ⟨fun c => fun _ => meanLoss (Cert.KernelIdeal.Table.preds m c) (Cert.KernelIdeal.Table.targets m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  funext i
  exact Cert.ReferenceIdeal.RefValue.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
